-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1x1 : Shape := ⟨2, ![1, 1]⟩
abbrev S2048x1 : Shape := ⟨2, ![2048, 1]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S2048x1 : S_.BroadcastsInDim S2048x1 (![] : Fin 0 → Fin S2048x1.rank)
  reducesTo_S2048x1_S_d0_1 : S2048x1.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S16384x2048 .f32) (main_arg1 : FVec F S1x1 .f32) (main_arg2 : FVec F S2048x1 .f32) (main_arg3 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S16384x2048 : Shape := ⟨2, ![16384, 2048]⟩
abbrev S1x1 : Shape := ⟨2, ![1, 1]⟩
abbrev S2048x1 : Shape := ⟨2, ![2048, 1]⟩
abbrev S2048x2048 : Shape := ⟨2, ![2048, 2048]⟩
abbrev S1x2048 : Shape := ⟨2, ![1, 2048]⟩
abbrev S16384 : Shape := ⟨1, ![16384]⟩
abbrev S512x2048 : Shape := ⟨2, ![512, 2048]⟩
abbrev S512 : Shape := ⟨1, ![512]⟩
abbrev S16384x1 : Shape := ⟨2, ![16384, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1x1, .f32⟩
  | .hbm, ⟨2, _⟩ => ⟨S2048x1, .f32⟩
  | .hbm, ⟨3, _⟩ => ⟨S2048x2048, .f32⟩
  | .hbm, ⟨4, _⟩ => ⟨S1x2048, .f32⟩
  | .hbm, ⟨5, _⟩ => ⟨S2048x2048, .bf16⟩
  | .hbm, ⟨6, _⟩ => ⟨S16384, .f32⟩
  | .hbm, ⟨7, _⟩ => ⟨S16384x1, .f32⟩
  | .local _ .vmem, ⟨0, _⟩ => ⟨S512x2048, .f32⟩
  | .local _ .vmem, ⟨1, _⟩ => ⟨S512x2048, .f32⟩
  | .local _ .vmem, ⟨2, _⟩ => ⟨S1x1, .f32⟩
  | .local _ .vmem, ⟨3, _⟩ => ⟨S1x2048, .f32⟩
  | .local _ .vmem, ⟨4, _⟩ => ⟨S2048x2048, .bf16⟩
  | .local _ .vmem, ⟨5, _⟩ => ⟨S512, .f32⟩
  | .local _ .vmem, ⟨6, _⟩ => ⟨S512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048x1_S1x2048 : S2048x1.ShapeCasts S1x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512_S512_0 : ∀ a, (![0] : Fin 1 → Nat) a + S512.size a ≤ S512.size a
  h_S512 : 0 < S512.numel
  shapeCasts_S16384_S16384x1 : S16384.ShapeCasts S16384x1
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S16384.size a
  hwx0_4 : ∀ i : grid0.Coords, EltTy.bits .f32 = 32 ∨ (Rect.block (s := S16384) S512.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S1x1 : Shape := ⟨2, ![1, 1]⟩
abbrev S2048x1 : Shape := ⟨2, ![2048, 1]⟩
abbrev S2048x2048 : Shape := ⟨2, ![2048, 2048]⟩
abbrev S16384x1 : Shape := ⟨2, ![16384, 1]⟩
abbrev S_ : Shape := ⟨0, ![]⟩
abbrev S16384 : Shape := ⟨1, ![16384]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x1, .f32⟩
  | .hbm, ⟨2, _⟩ => ⟨S2048x1, .f32⟩
  | .hbm, ⟨3, _⟩ => ⟨S2048x2048, .f32⟩
  | .hbm, ⟨4, _⟩ => ⟨S16384x1, .f32⟩
  | .hbm, ⟨5, _⟩ => ⟨S16384x1, .f32⟩
  | .hbm, ⟨6, _⟩ => ⟨S16384x1, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S1x1_S16384x1_0_1 : S1x1.BroadcastsInDim S16384x1 (![0, 1] : Fin 2 → Fin S16384x1.rank)
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x2048_S2048x1_S16384x1_1_0_0_1_n_n_wf : DotDims.WF S16384x2048 S2048x1 S16384x1 [1] [0] [0] [1] [] []
  dot_S16384x2048_S2048x2048_S16384x2048_1_0_0_1_n_n_wf : DotDims.WF S16384x2048 S2048x2048 S16384x2048 [1] [0] [0] [1] [] []

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Consts.lean ====
/-
  The two float words the proof evaluates: `1.0` is the real number one, and the word with an all-ones
  exponent, zero fraction and clear sign is `+∞`.  They are unfolded here, once, and cited elsewhere.
-/
import Idealize.ShloMosaic.PureOps.Ideal

namespace Cert.Poly2.Consts

open Idealize.ShloMosaic

/-- The f32 word `0x3F800000` (sign 0, biased exponent 127, fraction 0) denotes `1`. -/
theorem ofBits_one : Ideal.ofBits .f32 0x3F800000#32 = 1 := by
  simp [Ideal.ofBits, Ideal.ieee, -EReal.coe_mul]; norm_num

/-- The f32 word `0x7F800000` (sign 0, exponent all ones, fraction 0) denotes `+∞`. -/
theorem ofBits_inf : Ideal.ofBits .f32 0x7F800000#32 = ⊤ := by
  simp [Ideal.ofBits, Ideal.ieee]

end Cert.Poly2.Consts
-- ==== Proof.Finite.lean ====
/-
  Finiteness.  The precondition says, of each of the four argument arrays, that every entry's absolute value is below
  `+∞`; the four statements are joined by `and`.  On the extended reals `|x| = max x (-x)` is `+∞` exactly at the two
  infinities, so an entry with `|x| < +∞` is a real number.  That is the only use the proof makes of the precondition:
  it lets the distributive law be applied to the entries.
-/
import proofs.«171619_j73521250173556_2_alg».proof.Pre_finite_inputs
import proofs.«171619_j73521250173556_2_alg».proof.Proof.Consts
import Idealize.ShloMosaic.PureOps.Ideal
import Idealize.ShloMosaic.Lib.Affine
import Idealize.ShloMosaic.Lib.ReduceAll
import Idealize.ShloMosaic.Lib.ValueIdx

noncomputable section

namespace Cert.Poly2.Finite

open Idealize.ShloMosaic

/-- An extended real whose absolute value compares strictly below the word of `+∞` is a real number: at `⊥` and at
    `⊤` the absolute value is `⊤`, which is not below `⊤`. -/
theorem real_of_abs_lt_inf (x : EReal)
    (h : Ideal.cmp .olt (max x (-x)) (Ideal.ofBits .f32 0x7F800000#32) = 1#1) : ∃ t : ℝ, x = t := by
  rw [Consts.ofBits_inf] at h
  induction x using EReal.rec with
  | bot => simp [Ideal.cmp] at h
  | coe r => exact ⟨r, rfl⟩
  | top => simp [Ideal.cmp] at h

/-- The scalar shape has one index. -/
instance : Subsingleton (⟨0, ![]⟩ : Shape).Idx := ⟨fun _ _ => funext fun d => d.elim0⟩

variable [Cert.Pre_finite_inputs.Facts]

/-- Under the precondition every entry of every argument array is a real number: the conjunction is split, each
    `all` gives its comparison at every index, and the comparison gives the entry. -/
theorem reals_of_pre (a0 : FVec Ideal Cert.Pre_finite_inputs.S16384x2048 .f32) (a1 : FVec Ideal Cert.Pre_finite_inputs.S1x1 .f32)
    (a2 : FVec Ideal Cert.Pre_finite_inputs.S2048x1 .f32) (a3 : FVec Ideal Cert.Pre_finite_inputs.S2048x2048 .f32)
    (h : Cert.Pre_finite_inputs.fn (F := Ideal) a0 a1 a2 a3 = fun _ => 1#1) :
    (∀ i, ∃ t : ℝ, a0 i = t) ∧ (∀ i, ∃ t : ℝ, a1 i = t) ∧ (∀ i, ∃ t : ℝ, a2 i = t) ∧ (∀ i, ∃ t : ℝ, a3 i = t) := by
  have h' := congrFun h ValueIdx.ix0
  dsimp only [Cert.Pre_finite_inputs.fn, Cert.Pre_finite_inputs.fn_part1, andi] at h'
  obtain ⟨h012, h3⟩ := IntOp.andi_eq_one.1 h'
  obtain ⟨h01, h2⟩ := IntOp.andi_eq_one.1 h012
  obtain ⟨h0, h1⟩ := IntOp.andi_eq_one.1 h01
  exact ⟨fun i => real_of_abs_lt_inf (a0 i) (Host.reduce_andi_all _ _ _ _ _ h0 i),
    fun i => real_of_abs_lt_inf (a1 i) (Host.reduce_andi_all _ _ _ _ _ h1 i),
    fun i => real_of_abs_lt_inf (a2 i) (Host.reduce_andi_all _ _ _ _ _ h2 i),
    fun i => real_of_abs_lt_inf (a3 i) (Host.reduce_andi_all _ _ _ _ _ h3 i)⟩

end Cert.Poly2.Finite

end
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.Spec.lean ====
/-
  The specification.  For a row `r` of `x` (16384 rows of 2048 entries), a scalar `w0`, a column `w1` of 2048 entries
  and a 2048 × 2048 matrix `w2`, the result at `(r, 0)` is the logistic function of the SCORE

      s(r) = w0 + Σ_k x[r,k]·w1[k] + Σ_j (Σ_k x[r,k]·w2[k,j]) · x[r,j].

  One program adds the linear term inside the quadratic sum, `Σ_j ((Σ_k x[r,k]·w2[k,j]) + w1[j]) · x[r,j] + w0`
  (`score`); the other keeps the two sums apart (`scoreRef`).  The two arrangements are equal by distributivity of
  the product over the sum, splitting a finite sum, and commutativity.  On the extended reals distributivity fails at
  the infinities, so the law is proved over the reals and holds of extended reals that are all real numbers.
-/
import Idealize.ShloMosaic.PureOps.Ideal
import Idealize.ShloMosaic.Lib.ValueIdx
import proofs.«171619_j73521250173556_2_alg».proof.Proof.LibERealSum

noncomputable section

open scoped BigOperators

namespace Cert.Poly2

open Idealize.ShloMosaic Idealize.ShloMosaic.ValueIdx

/-- The score of row `r` with the linear term folded into the quadratic sum:
    `Σ_j ((Σ_k x[r,k]·w2[k,j]) + w1[j]) · x[r,j] + w0`. -/
def score (x : (⟨2, ![16384, 2048]⟩ : Shape).Idx → EReal) (w0 : (⟨2, ![1, 1]⟩ : Shape).Idx → EReal)
    (w1 : (⟨2, ![2048, 1]⟩ : Shape).Idx → EReal) (w2 : (⟨2, ![2048, 2048]⟩ : Shape).Idx → EReal) (r : Fin 16384) : EReal :=
  (∑ j : Fin 2048, ((∑ k : Fin 2048, x (ix2 r k) * w2 (ix2 k j)) + w1 (ix2 j (0 : Fin 1))) * x (ix2 r j))
    + w0 (ix2 (0 : Fin 1) (0 : Fin 1))

/-- The score of row `r` with the two sums apart: `(w0 + Σ_k x[r,k]·w1[k]) + (0 + Σ_j (Σ_k x[r,k]·w2[k,j]) · x[r,j])`
    (the `0` is the sum's initial value). -/
def scoreRef (x : (⟨2, ![16384, 2048]⟩ : Shape).Idx → EReal) (w0 : (⟨2, ![1, 1]⟩ : Shape).Idx → EReal)
    (w1 : (⟨2, ![2048, 1]⟩ : Shape).Idx → EReal) (w2 : (⟨2, ![2048, 2048]⟩ : Shape).Idx → EReal) (r : Fin 16384) : EReal :=
  (w0 (ix2 (0 : Fin 1) (0 : Fin 1)) + ∑ k : Fin 2048, x (ix2 r k) * w1 (ix2 k (0 : Fin 1)))
    + (0 + ∑ j : Fin 2048, (∑ k : Fin 2048, x (ix2 r k) * w2 (ix2 k j)) * x (ix2 r j))

/-- The result array: at `(r, u)` (the second axis has one coordinate) the logistic function of row `r`'s score. -/
def result (x : (⟨2, ![16384, 2048]⟩ : Shape).Idx → EReal) (w0 : (⟨2, ![1, 1]⟩ : Shape).Idx → EReal)
    (w1 : (⟨2, ![2048, 1]⟩ : Shape).Idx → EReal) (w2 : (⟨2, ![2048, 2048]⟩ : Shape).Idx → EReal) :
    (⟨2, ![16384, 1]⟩ : Shape).Idx → EReal :=
  fun i => Ideal.logistic (score x w0 w1 w2 (i 0))

/-- The law over the reals: `Σ_j (S_j + c_j)·a_j + d = (d + Σ_k a_k·c_k) + (0 + Σ_j S_j·a_j)` with
    `S_j = Σ_k a_k·b_kj`: distribute, split the sum, commute the factors of the linear term. -/
theorem law_real {ι : Type*} [Fintype ι] (a c : ι → ℝ) (b : ι → ι → ℝ) (d : ℝ) :
    (∑ j, ((∑ k, a k * b k j) + c j) * a j) + d
      = (d + ∑ k, a k * c k) + (0 + ∑ j, (∑ k, a k * b k j) * a j) := by
  simp only [add_mul, Finset.sum_add_distrib, zero_add]
  rw [show ∑ j, c j * a j = ∑ k, a k * c k from Finset.sum_congr rfl fun k _ => mul_comm _ _]
  ring

/-- The same law of extended reals that are real numbers: the embedding of the reals commutes with products, sums and
    finite sums, so both sides are the embedding of the two sides of `law_real`. -/
theorem law {ι : Type*} [Fintype ι] (a c : ι → ℝ) (b : ι → ι → ℝ) (d : ℝ) :
    (∑ j, ((∑ k, (a k : EReal) * (b k j : EReal)) + (c j : EReal)) * (a j : EReal)) + (d : EReal)
      = ((d : EReal) + ∑ k, (a k : EReal) * (c k : EReal))
        + (0 + ∑ j, (∑ k, (a k : EReal) * (b k j : EReal)) * (a j : EReal)) := by
  simp only [← EReal.coe_mul, ← Cert.LibERealSum.coe_sum, ← EReal.coe_add, ← EReal.coe_zero]
  exact congrArg _ (law_real a c b d)

/-- When every entry of the four arrays is a real number, the two arrangements of the score agree. -/
theorem scoreRef_eq_score (x : (⟨2, ![16384, 2048]⟩ : Shape).Idx → EReal) (w0 : (⟨2, ![1, 1]⟩ : Shape).Idx → EReal)
    (w1 : (⟨2, ![2048, 1]⟩ : Shape).Idx → EReal) (w2 : (⟨2, ![2048, 2048]⟩ : Shape).Idx → EReal)
    (hx : ∀ i, ∃ t : ℝ, x i = t) (h0 : ∀ i, ∃ t : ℝ, w0 i = t) (h1 : ∀ i, ∃ t : ℝ, w1 i = t)
    (h2 : ∀ i, ∃ t : ℝ, w2 i = t) (r : Fin 16384) : scoreRef x w0 w1 w2 r = score x w0 w1 w2 r := by
  choose x' hx using hx
  choose w0' h0 using h0
  choose w1' h1 using h1
  choose w2' h2 using h2
  unfold scoreRef score
  simp only [hx, h0, h1, h2]
  exact (law (fun k => x' (ix2 r k)) (fun j => w1' (ix2 j (0 : Fin 1))) (fun k j => w2' (ix2 k j))
    (w0' (ix2 (0 : Fin 1) (0 : Fin 1)))).symm

end Cert.Poly2

end
-- ==== Proof.RefSide.lean ====
/-
  The reference program's result, read at one entry.  The reference computes the linear term `w0 + x·w1` and the
  quadratic term `Σ_j (x·w2)[r,j]·x[r,j]` apart, adds them, and spells the logistic function out as
  `1 / (1 + exp(-s))` with the constant `1.0`.  On the extended reals the logistic function IS that expression, so at
  `(r, 0)` the result is the logistic function of the score of row `r` in the reference's arrangement; under the
  finiteness of the inputs that is the specification's arrangement.
-/
import proofs.«171619_j73521250173556_2_alg».proof.Proof.Gen.ReferenceIdeal.Read
import proofs.«171619_j73521250173556_2_alg».proof.Proof.Spec
import proofs.«171619_j73521250173556_2_alg».proof.Proof.Consts

noncomputable section

open scoped BigOperators

namespace Cert.Poly2.RefSide

open Idealize.ShloMosaic Idealize.ShloMosaic.ValueIdx Cert.ReferenceIdeal Cert.ReferenceIdeal.Gen Cert.ReferenceIdeal.Read

/-- THE REFERENCE AT `(r, u)`: every stage read at its index, the stages' index maps named by coordinates, the two
    constants evaluated (`1.0` is one, the sum's initial value is zero). -/
theorem ref_apply (x0 : (⟨S16384x2048, .f32⟩ : BufTy).Contents (Elt Ideal)) (x1 : (⟨S1x1, .f32⟩ : BufTy).Contents (Elt Ideal))
    (x2 : (⟨S2048x1, .f32⟩ : BufTy).Contents (Elt Ideal)) (x3 : (⟨S2048x2048, .f32⟩ : BufTy).Contents (Elt Ideal))
    (r : Fin 16384) (u : Fin 1) :
    val_main_v13 (F := Ideal) x0 x1 x2 x3 (ix2 r u) = Ideal.logistic (scoreRef x0 x1 x2 x3 r) := by
  obtain rfl : u = 0 := Subsingleton.elim _ _
  have e1 : idx_main_v1 (ix2 r (0 : Fin 1)) = ix2 (0 : Fin 1) (0 : Fin 1) :=
    funext fun a => Fin.ext (by match a with | ⟨0, _⟩ => rfl | ⟨1, _⟩ => rfl)
  have e0l : ∀ k : Fin 2048, lidx_main_v0 (ix2 r (0 : Fin 1)) k = ix2 r k := fun k =>
    funext fun a => Fin.ext (by match a with | ⟨0, _⟩ => rfl | ⟨1, _⟩ => rfl)
  have e0r : ∀ k : Fin 2048, ridx_main_v0 (ix2 r (0 : Fin 1)) k = ix2 k (0 : Fin 1) := fun k =>
    funext fun a => Fin.ext (by match a with | ⟨0, _⟩ => rfl | ⟨1, _⟩ => rfl)
  have e6 : idx_main_v6 (ix2 r (0 : Fin 1)) = ix1 r :=
    funext fun a => Fin.ext (by match a with | ⟨0, _⟩ => rfl)
  have e5 : ∀ k : Fin 2048, idx_main_v5 (ix1 r) k = ix2 r k := fun k =>
    funext fun a => Fin.ext (by match a with | ⟨0, _⟩ => rfl | ⟨1, _⟩ => rfl)
  have e3l : ∀ j k : Fin 2048, lidx_main_v3 (ix2 r j) k = ix2 r k := fun j k =>
    funext fun a => Fin.ext (by match a with | ⟨0, _⟩ => rfl | ⟨1, _⟩ => rfl)
  have e3r : ∀ j k : Fin 2048, ridx_main_v3 (ix2 r j) k = ix2 k j := fun j k =>
    funext fun a => Fin.ext (by match a with | ⟨0, _⟩ => rfl | ⟨1, _⟩ => rfl)
  simp only [val_main_v13_apply, val_main_v12_apply, val_main_cst_1_apply, val_main_v11_apply, val_main_v10_apply,
    val_main_cst_0_apply, val_main_v9_apply, val_main_v8_apply, val_main_v7_apply, val_main_v2_apply, val_main_v1_apply,
    val_main_v0_apply, val_main_v6_apply, val_main_v5_apply, val_main_cst_apply, val_main_v4_apply, val_main_v3_apply,
    e1, e0l, e0r, e6, e5, e3l, e3r,
    Ideal.hostDivf_def, Ideal.addf_def, Ideal.mulf_def, Ideal.hostUnary_exp_def, Ideal.hostNegf_def, Ideal.negf_def,
    Ideal.ofBits_def, Consts.ofBits_one, Ideal.ofBits_zero_f32]
  rfl

/-- THE REFERENCE'S RESULT IS THE SPECIFICATION when every entry of the four arrays is a real number: entry by entry,
    the two arrangements of the score agree there. -/
theorem ref_eq (x0 : (⟨S16384x2048, .f32⟩ : BufTy).Contents (Elt Ideal)) (x1 : (⟨S1x1, .f32⟩ : BufTy).Contents (Elt Ideal))
    (x2 : (⟨S2048x1, .f32⟩ : BufTy).Contents (Elt Ideal)) (x3 : (⟨S2048x2048, .f32⟩ : BufTy).Contents (Elt Ideal))
    (h0 : ∀ i, ∃ t : ℝ, x0 i = t) (h1 : ∀ i, ∃ t : ℝ, x1 i = t) (h2 : ∀ i, ∃ t : ℝ, x2 i = t) (h3 : ∀ i, ∃ t : ℝ, x3 i = t) :
    val_main_v13 (F := Ideal) x0 x1 x2 x3 = result x0 x1 x2 x3 := by
  funext i
  obtain ⟨r, u, rfl⟩ : ∃ (r : Fin 16384) (u : Fin 1), i = ix2 r u := ⟨i 0, i 1, eq_ix2 i⟩
  rw [ref_apply, scoreRef_eq_score x0 x1 x2 x3 h0 h1 h2 h3 r]
  rfl

end Cert.Poly2.RefSide

end
-- ==== Proof.Payload.lean ====
/-
  What the kernel body stores, read at one entry.  The body works on a block of 512 rows of `x`.  For row `p` of the
  block it forms the matrix product `(x·w2)[p,j] = Σ_k x[p,k]·w2[k,j]` (into a zero accumulator, so the product is just
  the sum), adds the row vector `w1` to every row, multiplies entry by entry with `x`, sums each row over its 2048
  lanes (from the initial value zero, the sum's neutral element), adds the scalar `w0`, and applies the logistic
  function.  So entry `p` of the stored vector is

      logistic( Σ_j ((Σ_k x[p,k]·w2[k,j]) + w1[0,j]) · x[p,j]  +  w0[0,0] ).

  A change of float format is the identity on the extended reals, and a cast of a vector to its own shape is the
  identity, so neither appears in the formula.
-/
import proofs.«171619_j73521250173556_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Poly2.KerSide

open Idealize.ShloMosaic Idealize.ShloMosaic.ValueIdx Cert.KernelIdeal Cert.KernelIdeal.Gen

/-- In the product's index maps, the left operand's row is the result's row … -/
theorem lhs_row (i : S512x2048.Idx) (q : dot_S512x2048_S2048x2048_S512x2048_1_0_0_1_n_n.contr.Idx) : (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl
/-- … its column is the contracted coordinate … -/
theorem lhs_col (i : S512x2048.Idx) (q : dot_S512x2048_S2048x2048_S512x2048_1_0_0_1_n_n.contr.Idx) : (dot_S512x2048_S2048x2048_S512x2048_1_0_0_1_n_n.lhsIdx i q 1).val = (q ⟨0, by decide⟩).val :=
  dot_S512x2048_S2048x2048_S512x2048_1_0_0_1_n_n.lhsIdx_val_of_single rfl i q
/-- … the right operand's row is the contracted coordinate … -/
theorem rhs_row (i : S512x2048.Idx) (q : dot_S512x2048_S2048x2048_S512x2048_1_0_0_1_n_n.contr.Idx) : (dot_S512x2048_S2048x2048_S512x2048_1_0_0_1_n_n.rhsIdx i q 0).val = (q ⟨0, by decide⟩).val :=
  dot_S512x2048_S2048x2048_S512x2048_1_0_0_1_n_n.rhsIdx_val_of_single rfl i q
/-- … and its column is the result's column. -/
theorem rhs_col (i : S512x2048.Idx) (q : dot_S512x2048_S2048x2048_S512x2048_1_0_0_1_n_n.contr.Idx) : (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The matrix product of a 512 × 2048 block with a 2048 × 2048 matrix into the zero accumulator, at `(p, j)`: the sum
    over the one contracted axis of the left operand's row `p` against the right operand's column `j`.  The contraction
    index has one coordinate; the sum is re-indexed by it, and the two operand indices are named coordinate by
    coordinate. -/
theorem matmul_apply (a : FVec Ideal S512x2048 .bf16) (b : FVec Ideal S2048x2048 .bf16) (p : Fin 512) (j : Fin 2048) :
    matmul dot_S512x2048_S2048x2048_S512x2048_1_0_0_1_n_n none a b (constant (F := Ideal) S512x2048 .f32 0x00000000#32) (ix2 p j)
      = ∑ k : Fin 2048, a (ix2 p k) * b (ix2 k j) := by
  refine (Ideal.matmul_constant_zero_apply dot_S512x2048_S2048x2048_S512x2048_1_0_0_1_n_n none a b (ix2 p j)).trans ?_
  rw [← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 p j) ((ValueIdx.contrEquiv1 dot_S512x2048_S2048x2048_S512x2048_1_0_0_1_n_n 2048 rfl rfl).symm k) = ix2 p k :=
    funext fun ax => Fin.ext (by
      match ax with
      | ⟨0, _⟩ => exact lhs_row _ _
      | ⟨1, _⟩ => exact (lhs_col _ _).trans hk)
  have er : dot_S512x2048_S2048x2048_S512x2048_1_0_0_1_n_n.rhsIdx (ix2 p j) ((ValueIdx.contrEquiv1 dot_S512x2048_S2048x2048_S512x2048_1_0_0_1_n_n 2048 rfl rfl).symm k) = ix2 k j :=
    funext fun ax => Fin.ext (by
      match ax with
      | ⟨0, _⟩ => exact (rhs_row _ _).trans hk
      | ⟨1, _⟩ => exact rhs_col _ _)
  rw [el, er]

/-- The sum of a 512 × 2048 array over its lanes, from the initial value zero, at row `p`: the sum of row `p`. -/
theorem rowsum_apply (v : FVec Ideal S512x2048 .f32) (p : Fin 512) :
    multiReduction .add [1] S512 v 0x00000000#32 reduces_S512x2048_S512 (.inl rfl) rfl (ix1 p) = ∑ j : Fin 2048, v (ix2 p j) := by
  refine (Ideal.multiReduction_add_single v 0x00000000#32 reduces_S512x2048_S512 (.inl rfl) rfl (ix1 p)).trans ?_
  refine Finset.sum_congr rfl fun j _ => ?_
  exact congrArg v (funext fun ax => Fin.ext (by match ax with | ⟨0, _⟩ => rfl | ⟨1, _⟩ => rfl))

/-- The one row `w1` spread over the 512 rows, at `(p, j)`: the row's entry `j`. -/
theorem bias_apply (w : FVec Ideal S1x2048 .f32) (p : Fin 512) (j : Fin 2048) :
    broadcastTo S512x2048 (shapeCast S1x2048 w shapeCasts_S1x2048_S1x2048) broadcasts_S1x2048_S512x2048 (ix2 p j)
      = w (ix2 (0 : Fin 1) j) := by
  rw [shapeCast_self]
  exact broadcastTo_1b_ab_apply w broadcasts_S1x2048_S512x2048 p j

/-- The scalar taken out of the 1 × 1 array is its one entry. -/
theorem scalar_apply (w : FVec Ideal S1x1 .f32) :
    extractAt ![0, 0] w inpos_S1x1_p0_0 = w (ix2 (0 : Fin 1) (0 : Fin 1)) := by
  unfold extractAt
  exact congrArg w (funext fun ax => Fin.ext (by match ax with | ⟨0, _⟩ => rfl | ⟨1, _⟩ => rfl))

/-- THE PAYLOAD AT ENTRY `p`: the logistic function of the block row's score, the linear term inside the sum. -/
theorem pay_apply (x0 : Vec Ideal S512x2048 .f32) (x3 : Vec Ideal S2048x2048 .bf16) (x2 : Vec Ideal S1x2048 .f32)
    (x1 : Vec Ideal S1x1 .f32) (p : Fin 512) :
    k0_pay1 (F := Ideal) x0 x3 x2 x1 (ix1 p)
      = Ideal.logistic ((∑ j : Fin 2048, ((∑ k : Fin 2048, x0 (ix2 p k) * x3 (ix2 k j)) + x2 (ix2 (0 : Fin 1) j)) * x0 (ix2 p j))
          + x1 (ix2 (0 : Fin 1) (0 : Fin 1))) := by
  unfold k0_pay1
  show Ideal.logistic (multiReduction (F := Ideal) .add [1] S512 _ 0x00000000#32 reduces_S512x2048_S512 (.inl rfl) rfl (ix1 p)
    + extractAt ![0, 0] x1 inpos_S1x1_p0_0) = _
  refine congrArg Ideal.logistic (congrArg₂ (· + ·) ((rowsum_apply _ p).trans (Finset.sum_congr rfl fun j _ => ?_)) (scalar_apply x1))
  show (matmul dot_S512x2048_S2048x2048_S512x2048_1_0_0_1_n_n none _ _ (constant (F := Ideal) S512x2048 .f32 0x00000000#32) (ix2 p j)
    + broadcastTo S512x2048 (shapeCast S1x2048 x2 shapeCasts_S1x2048_S1x2048) broadcasts_S1x2048_S512x2048 (ix2 p j)) * x0 (ix2 p j) = _
  refine congrArg₂ (· * ·) (congrArg₂ (· + ·) ((matmul_apply _ _ p j).trans (Finset.sum_congr rfl fun k _ => ?_)) (bias_apply x2 p j)) rfl
  rw [shapeCast_self]
  rfl

end Cert.Poly2.KerSide

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelValue.lean ====
/-
  What the kernel program leaves in its result.  The grid has 32 points; point `t` works on rows
  `512·t … 512·t + 511` of `x` (all 2048 columns), on the whole of `w0`, of `w1` laid out as one row, and of `w2`, and
  writes 512 entries of a vector of 16384.  The entry it writes for row `r` depends only on row `r` of `x` and on the
  three weight arrays, so the 32 blocks are the restrictions of ONE function of the row (`rows`); every row lies in
  exactly the block of point `r / 512`, so the vector ends holding that function.  The last operation views the vector
  as a column, which at `(r, 0)` reads entry `r`.  Before the kernel runs, `w1` (a column) is viewed as a row and
  `w2` changes float format; at an entry the first reads `w1[j, 0]` for `(0, j)` and the second is the identity on
  the extended reals.  Together: the result at `(r, 0)` is the logistic function of the score of row `r`.
-/
import proofs.«171619_j73521250173556_2_alg».proof.Proof.Gen.KernelIdeal.Frame
import proofs.«171619_j73521250173556_2_alg».proof.Proof.Payload
import proofs.«171619_j73521250173556_2_alg».proof.Proof.Spec
import proofs.«171619_j73521250173556_2_alg».proof.Proof.LibKeepdims
import Idealize.ShloMosaic.Lib.Pipeline.Value
import Idealize.ShloMosaic.Lib.StableHlo.Run

set_option maxRecDepth 16384

noncomputable section

open scoped BigOperators

namespace Cert.Poly2.KerValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The arrays the kernel finds -/

/-- The kernel's third operand is `w1` viewed as one row. -/
theorem found_w1row (c : Dev nD) : (V m c main_v0 : S1x2048.Idx → EReal)
    = shapeCast S1x2048 (m ((c : Thread nD τ).loc main_arg2)) shapeCasts_S2048x1_S1x2048 := by
  show StableHlo.after hostOps0 (fun b => m (c, b)) (Proc.devRef .tc main_v0) = _
  after_results
  rfl

/-- The kernel's fourth operand is `w2` in the narrower float format. -/
theorem found_w2 (c : Dev nD) : (V m c main_v1 : S2048x2048.Idx → EReal)
    = truncf (F := Ideal) .bf16 (m ((c : Thread nD τ).loc main_arg3)) bitsLt_bf16_f32 := by
  show StableHlo.after hostOps0 (fun b => m (c, b)) (Proc.devRef .tc main_v1) = _
  after_results

/-- A column of 2048 entries viewed as a row reads, at `(0, j)`, the column's entry `(j, 0)`: both sit at position
    `j` when the entries are counted row by row. -/
theorem col_as_row_apply {α : Type} (w : S2048x1.Idx → α) (j : Fin 2048) :
    shapeCast S1x2048 w shapeCasts_S2048x1_S1x2048 (ix2 (0 : Fin 1) j) = w (ix2 j (0 : Fin 1)) :=
  shapeCast_apply w shapeCasts_S2048x1_S1x2048 _ _ (by
    rw [Shape.rowMajor_val_two, Shape.rowMajor_val_two]
    show j.val * 1 + 0 = 0 * 2048 + j.val
    omega)

/-! ## One function of the row -/

/-- The value of row `r` from the arrays the kernel finds: `x`, `w0`, `w1` as a row, `w2`. -/
def rowVal (X : S16384x2048.Idx → EReal) (W0 : S1x1.Idx → EReal) (W1r : S1x2048.Idx → EReal) (W2 : S2048x2048.Idx → EReal)
    (r : Fin 16384) : EReal :=
  Ideal.logistic ((∑ j : Fin 2048, ((∑ k : Fin 2048, X (ix2 r k) * W2 (ix2 k j)) + W1r (ix2 (0 : Fin 1) j)) * X (ix2 r j))
    + W0 (ix2 (0 : Fin 1) (0 : Fin 1)))

/-- The vector of all rows' values. -/
def rows (X : S16384x2048.Idx → EReal) (W0 : S1x1.Idx → EReal) (W1r : S1x2048.Idx → EReal) (W2 : S2048x2048.Idx → EReal) :
    S16384.Idx → EReal := fun i => rowVal X W0 W1r W2 (i 0)

/-- With `w1` given as a column and `w2` in its wide format, a row's value is the logistic function of its score. -/
theorem rowVal_eq (X : S16384x2048.Idx → EReal) (W0 : S1x1.Idx → EReal) (W1 : S2048x1.Idx → EReal)
    (W2 : S2048x2048.Idx → EReal) (r : Fin 16384) :
    rowVal X W0 (shapeCast S1x2048 W1 shapeCasts_S2048x1_S1x2048) (truncf (F := Ideal) .bf16 W2 bitsLt_bf16_f32) r
      = Ideal.logistic (score X W0 W1 W2 r) := by
  unfold rowVal score
  simp only [col_as_row_apply]
  rfl

/-- The body's stored entry, at an entry `y` of the block. -/
theorem pay_at (x0 : Vec Ideal S512x2048 .f32) (x3 : Vec Ideal S2048x2048 .bf16) (x2 : Vec Ideal S1x2048 .f32)
    (x1 : Vec Ideal S1x1 .f32) (y : S512.Idx) :
    k0_pay1 (F := Ideal) x0 x3 x2 x1 y
      = Ideal.logistic ((∑ j : Fin 2048, ((∑ k : Fin 2048, x0 (ix2 (y 0) k) * x3 (ix2 k j)) + x2 (ix2 (0 : Fin 1) j)) * x0 (ix2 (y 0) j))
          + x1 (ix2 (0 : Fin 1) (0 : Fin 1))) := by
  obtain ⟨p, rfl⟩ : ∃ p : Fin 512, y = ix1 p := ⟨y 0, eq_ix1 y⟩
  exact KerSide.pay_apply x0 x3 x2 x1 p

/-! ## From the blocks to the vector -/

theorem zero2 : (![0, 0] : Fin 2 → Nat) = fun _ => 0 := funext fun a => by fin_cases a <;> rfl
theorem zero1 : (![0] : Fin 1 → Nat) = fun _ => 0 := funext fun a => by fin_cases a <;> rfl

/-- Where each operand's block sits at point `t`: the block of `x` moves down with the output's block and stays in
    column block 0; the three weight arrays are always at block (0, 0); the output's block index is at most 31. -/
theorem block_positions : ∀ t : Fin cfg0.N,
    win0_0.index t (0 : Fin 2) = win0_4.index t (0 : Fin 1) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) ≤ 31 :=
  (by decide +kernel : ∀ t : Fin grid0.N, _)

/-- Every one of the 32 output blocks is some point's. -/
theorem block_onto : ∀ q : Fin 32, ∃ t : Fin cfg0.N, win0_4.index t = ![q.val] :=
  (by decide +kernel : ∀ q : Fin 32, ∃ t : Fin grid0.N, win0_4.index t = ![q.val])

/-- WHAT POINT `t` WRITES BACK is block `t` of the vector of rows' values.  An entry of a block sits in its array at
    block index × block size + its coordinate inside the block; with the positions above, entry `(p, k)` of the block
    of `x` is `x` at the output entry's row and column `k`, and the weight blocks are the weight arrays. -/
theorem flushed_eq (c : Dev nD) (t : Fin cfg0.N) :
    (dats m 0 c).flushed 4 t = ((cfg0.win 4).blk t).view.read (Elt Ideal)
      (rows (V m c main_arg0) (V m c main_arg1) (V m c main_v0) (V m c main_v1)) := by
  show (cfg0.win 4).cut (grid0.coords t) ((dats m 0 c).after 4 t) = _
  rw [after0_4]
  unfold out0_4
  rw [View.canon_unit_zero zero1]
  simp only [View.ld_unit_zero (S := S512x2048) zero2, View.ld_unit_zero (S := S2048x2048) zero2,
    View.ld_unit_zero (S := S1x2048) zero2, View.ld_unit_zero (S := S1x1) zero2]
  obtain ⟨e00, e01, e10, e11, e20, e21, e30, e31, -⟩ := block_positions t
  funext y
  show k0_pay1 (F := Ideal) (iblk m c 0 t) (iblk m c 3 t) (iblk m c 2 t) (iblk m c 1 t) y
    = rows (V m c main_arg0) (V m c main_arg1) (V m c main_v0) (V m c main_v1) (((cfg0.win 4).blk t).view.emb y)
  refine (pay_at (iblk m c 0 t) (iblk m c 3 t) (iblk m c 2 t) (iblk m c 1 t) y).trans ?_
  unfold rows rowVal
  have b0 : ∀ k : Fin 2048, iblk m c 0 t (ix2 (y 0) k)
      = V m c main_arg0 (ix2 ((((cfg0.win 4).blk t).view.emb y) 0) k) := fun k => by
    show V m c main_arg0 (((cfg0.win 0).blk t).view.emb (ix2 (y 0) k)) = _
    refine congrArg (V m c main_arg0) (funext fun a => Fin.ext ?_)
    match a with
    | ⟨0, _⟩ =>
      show win0_0.index t (0 : Fin 2) * 512 + 1 * (y 0).val = win0_4.index t (0 : Fin 1) * 512 + 1 * (y 0).val
      rw [e00]
    | ⟨1, _⟩ =>
      show win0_0.index t (1 : Fin 2) * 2048 + 1 * k.val = k.val
      rw [e01]; omega
  have b1 : iblk m c 1 t (ix2 (0 : Fin 1) (0 : Fin 1)) = V m c main_arg1 (ix2 (0 : Fin 1) (0 : Fin 1)) := by
    show V m c main_arg1 (((cfg0.win 1).blk t).view.emb (ix2 (0 : Fin 1) (0 : Fin 1))) = _
    refine congrArg (V m c main_arg1) (funext fun a => Fin.ext ?_)
    match a with
    | ⟨0, _⟩ => show win0_1.index t (0 : Fin 2) * 1 + 1 * 0 = 0; rw [e10]
    | ⟨1, _⟩ => show win0_1.index t (1 : Fin 2) * 1 + 1 * 0 = 0; rw [e11]
  have b2 : ∀ j : Fin 2048, iblk m c 2 t (ix2 (0 : Fin 1) j) = V m c main_v0 (ix2 (0 : Fin 1) j) := fun j => by
    show V m c main_v0 (((cfg0.win 2).blk t).view.emb (ix2 (0 : Fin 1) j)) = _
    refine congrArg (V m c main_v0) (funext fun a => Fin.ext ?_)
    match a with
    | ⟨0, _⟩ => show win0_2.index t (0 : Fin 2) * 1 + 1 * 0 = 0; rw [e20]
    | ⟨1, _⟩ => show win0_2.index t (1 : Fin 2) * 2048 + 1 * j.val = j.val; rw [e21]; omega
  have b3 : ∀ k j : Fin 2048, iblk m c 3 t (ix2 k j) = V m c main_v1 (ix2 k j) := fun k j => by
    show V m c main_v1 (((cfg0.win 3).blk t).view.emb (ix2 k j)) = _
    refine congrArg (V m c main_v1) (funext fun a => Fin.ext ?_)
    match a with
    | ⟨0, _⟩ => show win0_3.index t (0 : Fin 2) * 2048 + 1 * k.val = k.val; rw [e30]; omega
    | ⟨1, _⟩ => show win0_3.index t (1 : Fin 2) * 2048 + 1 * j.val = j.val; rw [e31]; omega
  refine congrArg Ideal.logistic ?_
  refine congrArg₂ (· + ·) (Finset.sum_congr rfl fun j _ => ?_) b1
  exact congrArg₂ (· * ·) (congrArg₂ (· + ·) (Finset.sum_congr rfl fun k _ => congrArg₂ (· * ·) (b0 k) (b3 k j)) (b2 j)) (b0 j)

/-- An entry of the vector is in point `t`'s block iff it lies in the block's range of 512 entries. -/
theorem mem_block (t : Fin cfg0.N) (i : S16384.Idx) :
    i ∈ ((cfg0.win 4).blk t).view.set ↔ ∀ a : Fin 1, win0_4.index t a * S512.size a ≤ (i a).val
      ∧ (i a).val < win0_4.index t a * S512.size a + S512.size a := by
  show i ∈ ((View.whole main_v2).slice (win0_4.rect t)).set ↔ _
  rw [View.set_slice_whole, Rect.mem_set_unit]
  exact Iff.rfl

/-- Every entry is in some point's block: entry `r` in the block of the point whose block index is `r / 512`. -/
theorem covered (i : S16384.Idx) : ∃ t : Fin cfg0.N, (cfg0.win 4).flush t = true ∧ i ∈ ((cfg0.win 4).blk t).view.set := by
  have hi : (i 0).val < 16384 := (i 0).isLt
  obtain ⟨t, ht⟩ := block_onto ⟨(i 0).val / 512, by omega⟩
  have q : win0_4.index t (0 : Fin 1) = (i 0).val / 512 := congrFun ht 0
  refine ⟨t, flush0_4 t, ?_⟩
  rw [mem_block]
  intro a
  match a with
  | ⟨0, _⟩ =>
    show win0_4.index t (0 : Fin 1) * 512 ≤ (i 0).val ∧ (i 0).val < win0_4.index t (0 : Fin 1) * 512 + 512
    omega

/-- THE VECTOR AFTER THE KERNEL: all rows' values. -/
theorem vector_eq (c : Dev nD) : (dats m 0 c).arrAt 4 cfg0.N
    = rows (V m c main_arg0) (V m c main_arg1) (V m c main_v0) (V m c main_v1) :=
  (dats m 0 c).arrAt_eq_of_cover 4 _ (fun t _ => flushed_eq m c t) covered

/-! ## The result -/

/-- The last operation views the vector the kernel wrote as a column. -/
theorem tail_eq (c : Dev nD) : Pipeline.afterTail₀ cfgs (dats m) 0 (V0 m) [hostOps1] c main_v3
    = shapeCast S16384x1 ((dats m 0 c).arrAt 4 cfg0.N) shapeCasts_S16384_S16384x1 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 4 cfg0.N :=
    Pipeline.withArrays_arr spec0 launch0.win.arr_inj c (V0 m c) _ 4
  rw [e]
  rfl

/-- THE RESULT is the specification of the argument arrays: the column at `(r, u)` is the vector at `r`, which is row
    `r`'s value from the arrays the kernel finds, which are the arguments (`x`, `w0` untouched; `w1` as a row; `w2`
    narrowed). -/
theorem result_eq (c : Dev nD) : Pipeline.afterTail₀ cfgs (dats m) 0 (V0 m) [hostOps1] c main_v3
    = result (m ((c : Thread nD τ).loc main_arg0)) (m ((c : Thread nD τ).loc main_arg1))
        (m ((c : Thread nD τ).loc main_arg2)) (m ((c : Thread nD τ).loc main_arg3)) := by
  rw [tail_eq, vector_eq, V_main_arg0, V_main_arg1, found_w1row, found_w2]
  funext i
  obtain ⟨r, u, rfl⟩ : ∃ (r : Fin 16384) (u : Fin 1), i = ix2 r u := ⟨i 0, i 1, eq_ix2 i⟩
  refine (Cert.LibKeepdims.shapeCast_a_a1_apply _ shapeCasts_S16384_S16384x1 r u).trans ?_
  exact rowVal_eq _ _ _ _ r

/-- THE KERNEL PROGRAM'S RUN: every weakly fair execution terminates with the result at the specification of the
    arguments and the arguments unchanged. -/
theorem run : θ_run defs (onTc (τ := τ) (main (F := Ideal))) ⟨m, fun _ => 0, ρ⟩ (fun r => ∀ c : Dev nD,
      r.2.mem ((c.tc : Thread nD τ).loc main_v3)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Poly2.KerValue

end
-- ==== Proof.lean ====
/-
  The certificate's claims.  Both programs compute, for each of the 16384 rows `r` of `x`, the logistic function of

      s(r) = w0 + Σ_k x[r,k]·w1[k] + Σ_j (Σ_k x[r,k]·w2[k,j]) · x[r,j].

  The kernel program folds the linear term into the quadratic sum, `Σ_j ((x·w2)[r,j] + w1[j])·x[r,j] + w0`, works in
  blocks of 512 rows, rounds `x` and `w2` to a narrower float format on the way into the matrix product, and applies
  one logistic operation; the reference keeps the two sums apart and spells the logistic function out as
  `1 / (1 + exp(-s))`.  On the extended reals a change of float format is the identity, a matrix product into a zero
  accumulator and a sum over a row are plain finite sums, and the logistic function is that expression; what remains
  is distributivity of the product over the sum, which needs every entry to be a real number — that is what the
  precondition (every input finite) provides.

  Proof/Spec.lean states the result and the law; Proof/Finite.lean reads the precondition; Proof/RefSide.lean reads
  the reference's result at an entry; Proof/Payload.lean reads what the kernel body stores at an entry;
  Proof/KernelValue.lean goes from the 32 blocks to the whole result.  Here the frames, `preserves` (the kernel
  program read over the extended reals is its own text, no operation rewritten, so there is nothing to state) and
  `algebraic` are assembled.
-/
import proofs.«171619_j73521250173556_2_alg».proof.Defs
import proofs.«171619_j73521250173556_2_alg».proof.Proof.Gen.Kernel
import proofs.«171619_j73521250173556_2_alg».proof.Proof.Gen.Kernel.Frame
import proofs.«171619_j73521250173556_2_alg».proof.Proof.Gen.KernelIdeal
import proofs.«171619_j73521250173556_2_alg».proof.Proof.Gen.KernelIdeal.Frame
import proofs.«171619_j73521250173556_2_alg».proof.Proof.Gen.ReferenceIdeal
import proofs.«171619_j73521250173556_2_alg».proof.Proof.Gen.ReferenceIdeal.Run
import proofs.«171619_j73521250173556_2_alg».proof.Proof.Gen.ReferenceIdeal.Read
import proofs.«171619_j73521250173556_2_alg».proof.Proof.Gen.Pre_finite_inputs
import proofs.«171619_j73521250173556_2_alg».proof.Proof.Finite
import proofs.«171619_j73521250173556_2_alg».proof.Proof.RefSide
import proofs.«171619_j73521250173556_2_alg».proof.Proof.KernelValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The reference runs and leaves its arguments unchanged: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote no operation. -/
theorem preserves : Cert.preserves_Kernel_KernelIdeal := trivial

/-- From memories that agree on the arguments both programs end with the specification's array of those arguments:
    the kernel program by its run; the reference by its run, the agreement, and — the inputs being finite, so that
    the distributive law applies — the equality of the two arrangements of the score. -/
theorem algebraic : Cert.algebraic_KernelIdeal_ReferenceIdeal := by
  intro m ρ m' ρ' hpre hagree
  refine ⟨fun c => Cert.Poly2.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Poly2.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3⟩ := Cert.Poly2.Finite.reals_of_pre _ _ _ _ (hpre c)
  rw [Cert.ReferenceIdeal.Read.val_main_v13_eq, (hagree c).1, (hagree c).2.1, (hagree c).2.2.1, (hagree c).2.2.2]
  exact Cert.Poly2.RefSide.ref_eq _ _ _ _ f0 f1 f2 f3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
